-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000 : Shape := ⟨1, ![320000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S256 : Shape := ⟨1, ![256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S256 : S_.BroadcastsInDim S256 (![] : Fin 0 → Fin S256.rank)
  reducesTo_S256_S_d0 : S256.ReducesTo [0] S_

variable [Facts]

def fn_part5 {F : FTy → Type} [FloatOps F] (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg16 : FVec F S256 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128 .f32) (main_arg14 : FVec F S128 .f32) (main_arg15 : FVec F S256 .f32) (main_arg16 : FVec F S256 .f32) (main_arg17 : FVec F S128 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_v63 main_v67

def fn_part2 {F : FTy → Type} [FloatOps F] (main_arg9 : FVec F S256 .f32) (main_arg10 : FVec F S256 .f32) (main_arg11 : FVec F S128 .f32) (main_arg12 : FVec F S128 .f32) (main_arg13 : FVec F S128 .f32) (main_arg14 : FVec F S128 .f32) (main_arg15 : FVec F S256 .f32) (main_arg16 : FVec F S256 .f32) (main_arg17 : FVec F S128 .f32) (main_arg18 : FVec F S128 .f32) (main_arg19 : FVec F S128 .f32) (main_arg20 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S1x128 .f32) (main_arg8 : FVec F S1 .f32) (main_arg9 : FVec F S256 .f32) (main_arg10 : FVec F S256 .f32) (main_arg11 : FVec F S128 .f32) (main_arg12 : FVec F S128 .f32) (main_arg13 : FVec F S128 .f32) (main_arg14 : FVec F S128 .f32) (main_arg15 : FVec F S256 .f32) (main_arg16 : FVec F S256 .f32) (main_arg17 : FVec F S128 .f32) (main_arg18 : FVec F S128 .f32) (main_arg19 : FVec F S128 .f32) (main_arg20 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S10000x128 .f32) (main_arg1 : IVec S320000 32) (main_arg2 : IVec S320000 32) (main_arg3 : FVec F S128x256 .f32) (main_arg4 : FVec F S128 .f32) (main_arg5 : FVec F S128x128 .f32) (main_arg6 : FVec F S128 .f32) (main_arg7 : FVec F S1x128 .f32) (main_arg8 : FVec F S1 .f32) (main_arg9 : FVec F S256 .f32) (main_arg10 : FVec F S256 .f32) (main_arg11 : FVec F S128 .f32) (main_arg12 : FVec F S128 .f32) (main_arg13 : FVec F S128 .f32) (main_arg14 : FVec F S128 .f32) (main_arg15 : FVec F S256 .f32) (main_arg16 : FVec F S256 .f32) (main_arg17 : FVec F S128 .f32) (main_arg18 : FVec F S128 .f32) (main_arg19 : FVec F S128 .f32) (main_arg20 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S10000x128 : Shape := ⟨2, ![10000, 128]⟩
abbrev S320000 : Shape := ⟨1, ![320000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S256 : Shape := ⟨1, ![256]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S1x256 : Shape := ⟨2, ![1, 256]⟩
abbrev S1x1 : Shape := ⟨2, ![1, 1]⟩
abbrev S2560x256 : Shape := ⟨2, ![2560, 256]⟩
abbrev S2560x1 : Shape := ⟨2, ![2560, 1]⟩
abbrev S256x128 : Shape := ⟨2, ![256, 128]⟩
abbrev S2560x128 : Shape := ⟨2, ![2560, 128]⟩
abbrev S128x1 : Shape := ⟨2, ![128, 1]⟩

abbrev nBuf : Space → Nat
  | .hbm => 56
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S256, .f32⟩
  | .hbm, ⟨16, _⟩ => ⟨S256, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x128, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x128, .f32⟩
  | .hbm, ⟨39, _⟩ => ⟨S320000x256, .f32⟩
  | .hbm, ⟨40, _⟩ => ⟨S1x128, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x1, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S320000x1, .f32⟩
  | .local _ .vmem, ⟨0, _⟩ => ⟨S2560x256, .f32⟩
  | .local _ .vmem, ⟨1, _⟩ => ⟨S2560x256, .f32⟩
  | .local _ .vmem, ⟨2, _⟩ => ⟨S128x256, .f32⟩
  | .local _ .vmem, ⟨3, _⟩ => ⟨S1x128, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2560x1, .f32⟩
  | .local _ .vmem, ⟨21, _⟩ => ⟨S2560x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S2560x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  shapeCasts_S128_S1x128 : S128.ShapeCasts S1x128
  shapeCasts_S256_S1x256 : S256.ShapeCasts S1x256
  shapeCasts_S1_S1x1 : S1.ShapeCasts S1x1
  inb_S2560x256_S2560x256_0_0 : ∀ a, (![0, 0] : Fin 2 → Nat) a + S2560x256.size a ≤ S2560x256.size a
  h_S2560x256 : 0 < S2560x256.numel
  shapeCasts_S2560x256_S2560x256 : S2560x256.ShapeCasts S2560x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2560x256 : S1x256.Broadcasts S2560x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2560x1 : S1x1.Broadcasts S2560x1
  inb_S2560x1_S2560x1_0_0 : ∀ a, (![0, 0] : Fin 2 → Nat) a + S2560x1.size a ≤ S2560x1.size a
  h_S2560x1 : 0 < S2560x1.numel
  gather_S10000x128_S320000x1_S320000x128_1_0_n_n_0_1_1128_wf : GatherDims.WF S10000x128 S320000x1 S320000x128 [1] [0] [] [0] [] 1 ![1, 128]
  dot_S2560x256_S256x128_S2560x128_1_0_0_1_n_n_wf : DotDims.WF S2560x256 S256x128 S2560x128 [1] [0] [0] [1] [] []
  dot_S2560x128_S128x128_S2560x128_1_0_0_1_n_n_wf : DotDims.WF S2560x128 S128x128 S2560x128 [1] [0] [0] [1] [] []
  dot_S2560x128_S128x1_S2560x1_1_0_0_1_n_n_wf : DotDims.WF S2560x128 S128x1 S2560x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x256.size a ≤ S320000x256.size a
  hwx0_0 : ∀ i : grid0.Coords, EltTy.bits .f32 = 32 ∨ (Rect.block (s := S320000x256) S2560x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2560x1.size a ≤ S320000x1.size a
  hwx0_19 : ∀ i : grid0.Coords, EltTy.bits .f32 = 32 ∨ (Rect.block (s := S320000x1) S2560x1.size (cc0_transform_19 i) (hinb0_19 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S2560x256_S256x128_S2560x128_1_0_0_1_n_n : DotDims S2560x256 S256x128 S2560x128 where
  lhsContracting := [1]
  rhsContracting := [0]
  lhsNonContracting := [0]
  rhsNonContracting := [1]
  lhsBatch := []
  rhsBatch := []
  wf := dot_S2560x256_S256x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S2560x128_S128x1_S2560x1_1_0_0_1_n_n : DotDims S2560x128 S128x1 S2560x1 where
  lhsContracting := [1]
  rhsContracting := [0]
  lhsNonContracting := [0]
  rhsNonContracting := [1]
  lhsBatch := []
  rhsBatch := []
  wf := dot_S2560x128_S128x1_S2560x1_1_0_0_1_n_n_wf

abbrev win0_0 : Pipeline.Window sig grid0 :=
  Pipeline.Window.ofSpec (Memref.whole main_v14) S2560x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg7) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v28) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v29) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v30) S2560x1.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S10000x128 : Shape := ⟨2, ![10000, 128]⟩
abbrev S320000 : Shape := ⟨1, ![320000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S256 : Shape := ⟨1, ![256]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S1x256 : Shape := ⟨2, ![1, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S256, .f32⟩
  | .hbm, ⟨16, _⟩ => ⟨S256, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x128, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x128, .f32⟩
  | .hbm, ⟨39, _⟩ => ⟨S320000x256, .f32⟩
  | .hbm, ⟨40, _⟩ => ⟨S1x256, .f32⟩
  | .hbm, ⟨41, _⟩ => ⟨S320000x256, .f32⟩
  | .hbm, ⟨42, _⟩ => ⟨S320000x256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S320000x256, .f32⟩
  | .hbm, ⟨49, _⟩ => ⟨S320000x256, .f32⟩
  | .hbm, ⟨50, _⟩ => ⟨S1x256, .f32⟩
  | .hbm, ⟨51, _⟩ => ⟨S320000x256, .f32⟩
  | .hbm, ⟨52, _⟩ => ⟨S320000x256, .f32⟩
  | .hbm, ⟨53, _⟩ => ⟨S1x256, .f32⟩
  | .hbm, ⟨54, _⟩ => ⟨S320000x256, .f32⟩
  | .hbm, ⟨55, _⟩ => ⟨S320000x256, .f32⟩
  | .hbm, ⟨56, _⟩ => ⟨S256x128, .f32⟩
  | .hbm, ⟨57, _⟩ => ⟨S320000x128, .f32⟩
  | .hbm, ⟨58, _⟩ => ⟨S1x128, .f32⟩
  | .hbm, ⟨59, _⟩ => ⟨S320000x128, .f32⟩
  | .hbm, ⟨60, _⟩ => ⟨S320000x128, .f32⟩
  | .hbm, ⟨61, _⟩ => ⟨S_, .f32⟩
  | .hbm, ⟨62, _⟩ => ⟨S320000x128, .f32⟩
  | .hbm, ⟨63, _⟩ => ⟨S320000x128, .f32⟩
  | .hbm, ⟨64, _⟩ => ⟨S1x128, .f32⟩
  | .hbm, ⟨65, _⟩ => ⟨S320000x128, .f32⟩
  | .hbm, ⟨66, _⟩ => ⟨S320000x128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S320000x128, .f32⟩
  | .hbm, ⟨73, _⟩ => ⟨S320000x128, .f32⟩
  | .hbm, ⟨74, _⟩ => ⟨S1x128, .f32⟩
  | .hbm, ⟨75, _⟩ => ⟨S320000x128, .f32⟩
  | .hbm, ⟨76, _⟩ => ⟨S320000x128, .f32⟩
  | .hbm, ⟨77, _⟩ => ⟨S1x128, .f32⟩
  | .hbm, ⟨78, _⟩ => ⟨S320000x128, .f32⟩
  | .hbm, ⟨79, _⟩ => ⟨S320000x128, .f32⟩
  | .hbm, ⟨80, _⟩ => ⟨S128x128, .f32⟩
  | .hbm, ⟨81, _⟩ => ⟨S320000x128, .f32⟩
  | .hbm, ⟨82, _⟩ => ⟨S1x128, .f32⟩
  | .hbm, ⟨83, _⟩ => ⟨S320000x128, .f32⟩
  | .hbm, ⟨84, _⟩ => ⟨S320000x128, .f32⟩
  | .hbm, ⟨85, _⟩ => ⟨S_, .f32⟩
  | .hbm, ⟨86, _⟩ => ⟨S320000x128, .f32⟩
  | .hbm, ⟨87, _⟩ => ⟨S320000x128, .f32⟩
  | .hbm, ⟨88, _⟩ => ⟨S1x128, .f32⟩
  | .hbm, ⟨89, _⟩ => ⟨S320000x128, .f32⟩
  | .hbm, ⟨90, _⟩ => ⟨S320000x128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S320000x128, .f32⟩
  | .hbm, ⟨97, _⟩ => ⟨S320000x128, .f32⟩
  | .hbm, ⟨98, _⟩ => ⟨S1x128, .f32⟩
  | .hbm, ⟨99, _⟩ => ⟨S320000x128, .f32⟩
  | .hbm, ⟨100, _⟩ => ⟨S320000x128, .f32⟩
  | .hbm, ⟨101, _⟩ => ⟨S1x128, .f32⟩
  | .hbm, ⟨102, _⟩ => ⟨S320000x128, .f32⟩
  | .hbm, ⟨103, _⟩ => ⟨S320000x128, .f32⟩
  | .hbm, ⟨104, _⟩ => ⟨S128x1, .f32⟩
  | .hbm, ⟨105, _⟩ => ⟨S320000x1, .f32⟩
  | .hbm, ⟨106, _⟩ => ⟨S1x1, .f32⟩
  | .hbm, ⟨107, _⟩ => ⟨S320000x1, .f32⟩
  | .hbm, ⟨108, _⟩ => ⟨S320000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call0_cst : Ref sig .tc := ⟨.hbm, 61, rfl⟩
abbrev main_call0_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call1_cst : Ref sig .tc := ⟨.hbm, 85, rfl⟩
abbrev main_call1_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_4 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S256 : S_.BroadcastsInDim S256 (![] : Fin 0 → Fin S256.rank)
  transposes_S128x256_S256x128_1_0 : S128x256.Transposes [1, 0] S256x128
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S128 : S_.BroadcastsInDim S128 (![] : Fin 0 → Fin S128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  gather_S10000x128_S320000x1_S320000x128_1_0_n_n_0_1_1128_wf : GatherDims.WF S10000x128 S320000x1 S320000x128 [1] [0] [] [0] [] 1 ![1, 128]
  dot_S320000x256_S256x128_S320000x128_1_0_0_1_n_n_wf : DotDims.WF S320000x256 S256x128 S320000x128 [1] [0] [0] [1] [] []
  dot_S320000x128_S128x128_S320000x128_1_0_0_1_n_n_wf : DotDims.WF S320000x128 S128x128 S320000x128 [1] [0] [0] [1] [] []
  dot_S320000x128_S128x1_S320000x1_1_0_0_1_n_n_wf : DotDims.WF S320000x128 S128x1 S320000x1 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf

class Facts : Prop extends Facts₀ where

variable [Facts]
-- ==== Proof.Spec.lean ====
/-
  The mathematics of the edge scorer, with no program in sight.

  One edge is one row of 256 features (the two endpoint embeddings side by side). It goes through three stages, each an
  evaluation-mode batch normalisation followed by a linear layer, with a rectifier between stages:

      normalise  x ↦ (x − μ) · rsqrt(σ² + ε) · γ + β        (entry by entry, the statistics per feature)
      linear     a ↦ Σₖ aₖ · W[j, k] + b[j]                  (the weight stored [out, in], so the sum runs along its rows)
      rectify    z ↦ max z 0

  256 → 128 → 128 → 1: the last stage has one output unit, the edge's score. Everything is over the extended reals;
  the epsilon and the rectifier's floor are kept as the f32 words the programs print and are never evaluated (the same
  word stands on both sides of every equation that mentions them).

  The parameters are taken as functions of plain coordinates (`Fin n`), so that one bundle can be read off arrays of
  different layouts: a length-n vector, or the same numbers held as a 1 × n row.
-/
import Idealize.ShloMosaic.PureOps.Ideal
import Idealize.ShloMosaic.Lib.ValueIdx

noncomputable section

namespace Cert.EdgeScore

open Idealize.ShloMosaic Idealize.ShloMosaic.ValueIdx

/-- The variance floor ε of the normalisation, as the f32 word both programs carry (the nearest f32 to 10⁻⁵). -/
def eps : EReal := Ideal.ofBits .f32 0x3727C5AC#32

/-- The rectifier's floor, as the f32 zero word. -/
def floor0 : EReal := Ideal.ofBits .f32 0x00000000#32

/-- Evaluation-mode batch normalisation of one entry `x` with running mean `μ`, running variance `σ2`, scale `γ`
    and shift `β`: `(x − μ) · rsqrt(σ2 + ε) · γ + β`, associated as written (no factor is moved: on the extended reals
    that would need finiteness). -/
def bnorm (x μ σ2 γ β : EReal) : EReal := (x - μ) * Ideal.rsqrt (σ2 + eps) * γ + β

/-- One output unit of a linear layer: the inner product of the activations with that unit's weight row, plus its bias. -/
def affine {n : Nat} (a w : Fin n → EReal) (b : EReal) : EReal := (∑ k : Fin n, a k * w k) + b

/-- The scorer's parameters, by coordinates: for each of the three stages the layer's weight (rows = output units),
    its bias, and the normalisation's scale, shift, running mean and running variance over the stage's INPUT features. -/
structure Params where
  W0 : Fin 128 → Fin 256 → EReal
  b0 : Fin 128 → EReal
  γ0 : Fin 256 → EReal
  β0 : Fin 256 → EReal
  μ0 : Fin 256 → EReal
  σ0 : Fin 256 → EReal
  W1 : Fin 128 → Fin 128 → EReal
  b1 : Fin 128 → EReal
  γ1 : Fin 128 → EReal
  β1 : Fin 128 → EReal
  μ1 : Fin 128 → EReal
  σ1 : Fin 128 → EReal
  W2 : Fin 128 → EReal
  b2 : EReal
  γ2 : Fin 128 → EReal
  β2 : Fin 128 → EReal
  μ2 : Fin 128 → EReal
  σ2 : Fin 128 → EReal

/-- The edge's features after the first normalisation. -/
def norm0 (P : Params) (x : Fin 256 → EReal) (k : Fin 256) : EReal := bnorm (x k) (P.μ0 k) (P.σ0 k) (P.γ0 k) (P.β0 k)

/-- Unit `j` of the first hidden layer, rectified. -/
def hidden0 (P : Params) (x : Fin 256 → EReal) (j : Fin 128) : EReal :=
  max (affine (norm0 P x) (P.W0 j) (P.b0 j)) floor0

/-- The first hidden layer after the second normalisation. -/
def norm1 (P : Params) (x : Fin 256 → EReal) (k : Fin 128) : EReal :=
  bnorm (hidden0 P x k) (P.μ1 k) (P.σ1 k) (P.γ1 k) (P.β1 k)

/-- Unit `j` of the second hidden layer, rectified. -/
def hidden1 (P : Params) (x : Fin 256 → EReal) (j : Fin 128) : EReal :=
  max (affine (norm1 P x) (P.W1 j) (P.b1 j)) floor0

/-- The second hidden layer after the third normalisation. -/
def norm2 (P : Params) (x : Fin 256 → EReal) (k : Fin 128) : EReal :=
  bnorm (hidden1 P x k) (P.μ2 k) (P.σ2 k) (P.γ2 k) (P.β2 k)

/-- The edge's score: the one output unit of the last layer (not rectified). -/
def score (P : Params) (x : Fin 256 → EReal) : EReal := affine (norm2 P x) P.W2 P.b2

/-- All the scores: entry `(e, 0)` of the 320000 × 1 result is the score of row `e` of the 320000 × 256 feature array. -/
def scores (P : Params) (X : (⟨2, ![320000, 256]⟩ : Shape).Idx → EReal) : (⟨2, ![320000, 1]⟩ : Shape).Idx → EReal :=
  fun i => score P fun k => X (ix2 (i 0) k)

end Cert.EdgeScore

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.BodyScore.lean ====
/-
  The kernel's body computes the edge scorer of Spec.lean on one block of 2560 edges.

  The body's arithmetic is a handful of pure terms of the blocks it loads (the generated payloads). Read at an entry:
  a statistic or a bias arrives as a 1 × n row broadcast down the block's 2560 rows, so at (y, k) it is the row's entry
  k; a weight is transposed before the product, so the product at (y, j) sums along the weight's row j; a change of
  float format is the identity; a cast to the same shape is the identity. Row y of the output block is therefore the
  specification's score of row y of the feature block, with the parameters read off the 1 × n rows.
-/
import proofs.«167067_j74131135529469_1_alg».proof.Proof.Gen.KernelIdeal.Frame
import proofs.«167067_j74131135529469_1_alg».proof.Proof.Spec
import proofs.«167067_j74131135529469_1_alg».proof.Proof.LibPlainMatmul
import Idealize.ShloMosaic.Lib.Pipeline.Value
import Idealize.ShloMosaic.Lib.ValueLayout

noncomputable section

namespace Cert.EdgeScore.Body

open Cert.KernelIdeal Cert.KernelIdeal.Gen Idealize.ShloMosaic Idealize.ShloMosaic.ValueIdx Cert.EdgeScore

/-! ## The three products, each against a transposed weight -/

/-- 2560 × 256 by 256 × 128. -/
theorem prod0_apply (a : FVec Ideal S2560x256 .bf16) (w : FVec Ideal S256x128 .bf16) (y : Fin 2560) (j : Fin 128) :
    matmul dot_S2560x256_S256x128_S2560x128_1_0_0_1_n_n none a w (constant S2560x128 .f32 0x00000000#32) (ix2 y j) = ∑ k : Fin 256, a (ix2 y k) * w (ix2 k j) :=
  Lib.matmul_zero_ix2_apply dot_S2560x256_S256x128_S2560x128_1_0_0_1_n_n rfl rfl
    (fun i q => by
      unfold DotDims.lhsIdx
      rw [dif_neg (show ¬(0 : Fin S2560x256.rank) ∈ dot_S2560x256_S256x128_S2560x128_1_0_0_1_n_n.lhsBatch by decide), dif_pos (show (0 : Fin S2560x256.rank) ∈ dot_S2560x256_S256x128_S2560x128_1_0_0_1_n_n.lhsNonContracting by decide)]
      rfl)
    (fun i q => dot_S2560x256_S256x128_S2560x128_1_0_0_1_n_n.lhsIdx_val_of_single rfl i q)
    (fun i q => dot_S2560x256_S256x128_S2560x128_1_0_0_1_n_n.rhsIdx_val_of_single rfl i q)
    (fun i q => by
      unfold DotDims.rhsIdx
      rw [dif_neg (show ¬(1 : Fin S256x128.rank) ∈ dot_S2560x256_S256x128_S2560x128_1_0_0_1_n_n.rhsBatch by decide), dif_pos (show (1 : Fin S256x128.rank) ∈ dot_S2560x256_S256x128_S2560x128_1_0_0_1_n_n.rhsNonContracting by decide)]
      rfl) none a w y j

/-- 2560 × 128 by 128 × 128. -/
theorem prod1_apply (a : FVec Ideal S2560x128 .bf16) (w : FVec Ideal S128x128 .bf16) (y : Fin 2560) (j : Fin 128) :
    matmul dot_S2560x128_S128x128_S2560x128_1_0_0_1_n_n none a w (constant S2560x128 .f32 0x00000000#32) (ix2 y j) = ∑ k : Fin 128, a (ix2 y k) * w (ix2 k j) :=
  Lib.matmul_zero_ix2_apply dot_S2560x128_S128x128_S2560x128_1_0_0_1_n_n rfl rfl
    (fun i q => by
      unfold DotDims.lhsIdx
      rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
      rfl)
    (fun i q => dot_S2560x128_S128x128_S2560x128_1_0_0_1_n_n.lhsIdx_val_of_single rfl i q)
    (fun i q => dot_S2560x128_S128x128_S2560x128_1_0_0_1_n_n.rhsIdx_val_of_single rfl i q)
    (fun i q => by
      unfold DotDims.rhsIdx
      rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
      rfl) none a w y j

/-- 2560 × 128 by 128 × 1. -/
theorem prod2_apply (a : FVec Ideal S2560x128 .bf16) (w : FVec Ideal S128x1 .bf16) (y : Fin 2560) (j : Fin 1) :
    matmul dot_S2560x128_S128x1_S2560x1_1_0_0_1_n_n none a w (constant S2560x1 .f32 0x00000000#32) (ix2 y j) = ∑ k : Fin 128, a (ix2 y k) * w (ix2 k j) :=
  Lib.matmul_zero_ix2_apply dot_S2560x128_S128x1_S2560x1_1_0_0_1_n_n rfl rfl
    (fun i q => by
      unfold DotDims.lhsIdx
      rw [dif_neg (show ¬(0 : Fin S2560x128.rank) ∈ dot_S2560x128_S128x1_S2560x1_1_0_0_1_n_n.lhsBatch by decide), dif_pos (show (0 : Fin S2560x128.rank) ∈ dot_S2560x128_S128x1_S2560x1_1_0_0_1_n_n.lhsNonContracting by decide)]
      rfl)
    (fun i q => dot_S2560x128_S128x1_S2560x1_1_0_0_1_n_n.lhsIdx_val_of_single rfl i q)
    (fun i q => dot_S2560x128_S128x1_S2560x1_1_0_0_1_n_n.rhsIdx_val_of_single rfl i q)
    (fun i q => by
      unfold DotDims.rhsIdx
      rw [dif_neg (show ¬(1 : Fin S128x1.rank) ∈ dot_S2560x128_S128x1_S2560x1_1_0_0_1_n_n.rhsBatch by decide), dif_pos (show (1 : Fin S128x1.rank) ∈ dot_S2560x128_S128x1_S2560x1_1_0_0_1_n_n.rhsNonContracting by decide)]
      rfl) none a w y j

/-! ## The parameters as the body finds them: 1 × n rows -/

/-- The parameter bundle read off the body's loaded blocks: the weights by (row, column), every vector as the one row
    of a 1 × n block, the last bias as the one entry of a 1 × 1 block. -/
def params (w0 : Vec Ideal S128x256 .f32) (b0 : Vec Ideal S1x128 .f32) (g0 be0 m0 s0 : Vec Ideal S1x256 .f32)
    (w1 : Vec Ideal S128x128 .f32) (b1 g1 be1 m1 s1 : Vec Ideal S1x128 .f32)
    (w2 : Vec Ideal S1x128 .f32) (b2 : Vec Ideal S1x1 .f32) (g2 be2 m2 s2 : Vec Ideal S1x128 .f32) : Params where
  W0 j k := w0 (ix2 j k)
  b0 j := b0 (ix2 (0 : Fin 1) j)
  γ0 k := g0 (ix2 (0 : Fin 1) k)
  β0 k := be0 (ix2 (0 : Fin 1) k)
  μ0 k := m0 (ix2 (0 : Fin 1) k)
  σ0 k := s0 (ix2 (0 : Fin 1) k)
  W1 j k := w1 (ix2 j k)
  b1 j := b1 (ix2 (0 : Fin 1) j)
  γ1 k := g1 (ix2 (0 : Fin 1) k)
  β1 k := be1 (ix2 (0 : Fin 1) k)
  μ1 k := m1 (ix2 (0 : Fin 1) k)
  σ1 k := s1 (ix2 (0 : Fin 1) k)
  W2 k := w2 (ix2 (0 : Fin 1) k)
  b2 := b2 (ix2 (0 : Fin 1) (0 : Fin 1))
  γ2 k := g2 (ix2 (0 : Fin 1) k)
  β2 k := be2 (ix2 (0 : Fin 1) k)
  μ2 k := m2 (ix2 (0 : Fin 1) k)
  σ2 k := s2 (ix2 (0 : Fin 1) k)

variable (xb : Vec Ideal S2560x256 .f32)
  (w0 : Vec Ideal S128x256 .f32) (b0 : Vec Ideal S1x128 .f32) (g0 be0 m0 s0 : Vec Ideal S1x256 .f32)
  (w1 : Vec Ideal S128x128 .f32) (b1 g1 be1 m1 s1 : Vec Ideal S1x128 .f32)
  (w2 : Vec Ideal S1x128 .f32) (b2 : Vec Ideal S1x1 .f32) (g2 be2 m2 s2 : Vec Ideal S1x128 .f32)

local notation "P" => params w0 b0 g0 be0 m0 s0 w1 b1 g1 be1 m1 s1 w2 b2 g2 be2 m2 s2

/-! ## The payloads at an entry -/

/-- Stage 0's payload — normalise the feature block, multiply by the transposed first weight, add the bias row,
    rectify — at (y, j) is unit j of the first hidden layer on row y of the block. -/
theorem hidden0_apply (y : Fin 2560) (j : Fin 128) :
    k0_pay2 xb g0 be0 m0 s0 w0 b0 (ix2 y j) = hidden0 P (fun k => xb (ix2 y k)) j := by
  unfold k0_pay2
  simp only [shapeCast_self]
  refine (congrArg₂ max (congrArg₂ (· + ·) (prod0_apply _ _ y j) (broadcastTo_1b_ab_apply b0 _ y j)) rfl).trans ?_
  unfold hidden0 affine norm0 bnorm
  refine congrArg₂ max (congrArg₂ (· + ·) (Finset.sum_congr rfl fun k _ => ?_) rfl) rfl
  refine congrArg₂ (· * ·) ?_ (transpose_ix2_apply _ _ k j)
  exact congrArg₂ (· + ·) (congrArg₂ (· * ·) (congrArg₂ (· * ·) (congrArg₂ (· - ·) rfl (broadcastTo_1b_ab_apply m0 _ y k))
    (broadcastTo_1b_ab_apply _ _ y k)) (broadcastTo_1b_ab_apply g0 _ y k)) (broadcastTo_1b_ab_apply be0 _ y k)

/-- Stage 1's payload, cut where the body cuts it: normalise the first hidden layer `h` with scale row `γ` and shift
    row `β`, multiply by the transposed second weight, add the bias row, rectify — and then already centre by the third
    normalisation's mean row and scale by the reciprocal root of its variance row. At (y, k): -/
theorem scaled1_apply (h : FVec Ideal S2560x128 .f32) (γ β : FVec Ideal S1x128 .f32) (y : Fin 2560) (k : Fin 128) :
    k0_pay6 h γ β m1 s1 w1 b1 m2 s2 (ix2 y k)
      = (max (affine (fun k' => bnorm (h (ix2 y k')) (m1 (ix2 (0 : Fin 1) k')) (s1 (ix2 (0 : Fin 1) k')) (γ (ix2 (0 : Fin 1) k')) (β (ix2 (0 : Fin 1) k')))
              (fun k' => w1 (ix2 k k')) (b1 (ix2 (0 : Fin 1) k))) floor0
          - m2 (ix2 (0 : Fin 1) k)) * Ideal.rsqrt (s2 (ix2 (0 : Fin 1) k) + eps) := by
  unfold k0_pay6
  simp only [shapeCast_self]
  refine congrArg₂ (· * ·) (congrArg₂ (· - ·) ?_ (broadcastTo_1b_ab_apply m2 _ y k)) (broadcastTo_1b_ab_apply _ _ y k)
  refine (congrArg₂ max (congrArg₂ (· + ·) (prod1_apply _ _ y k) (broadcastTo_1b_ab_apply b1 _ y k)) rfl).trans ?_
  unfold affine bnorm
  refine congrArg₂ max (congrArg₂ (· + ·) (Finset.sum_congr rfl fun k' _ => ?_) rfl) rfl
  refine congrArg₂ (· * ·) ?_ (transpose_ix2_apply _ _ k' k)
  exact congrArg₂ (· + ·) (congrArg₂ (· * ·) (congrArg₂ (· * ·) (congrArg₂ (· - ·) rfl (broadcastTo_1b_ab_apply m1 _ y k'))
    (broadcastTo_1b_ab_apply _ _ y k')) (broadcastTo_1b_ab_apply γ _ y k')) (broadcastTo_1b_ab_apply β _ y k')

/-- The output payload: finish the third normalisation (the centred and scaled values `c` times the scale `g`, plus
    the shift row `β`), multiply by the transposed 1 × 128 last weight, add the 1 × 1 bias. At (y, 0): -/
theorem out_apply (β : FVec Ideal S1x128 .f32) (c g : FVec Ideal S2560x128 .f32) (y : Fin 2560) :
    k0_pay1 β c g w2 b2 (ix2 y (0 : Fin 1))
      = affine (fun k => c (ix2 y k) * g (ix2 y k) + β (ix2 (0 : Fin 1) k)) (fun k => w2 (ix2 (0 : Fin 1) k)) (b2 (ix2 (0 : Fin 1) (0 : Fin 1))) := by
  unfold k0_pay1
  simp only [shapeCast_self]
  refine (congrArg₂ (· + ·) (prod2_apply _ _ y (0 : Fin 1)) (broadcastTo_1b_ab_apply b2 _ y (0 : Fin 1))).trans ?_
  unfold affine
  refine congrArg₂ (· + ·) (Finset.sum_congr rfl fun k _ => ?_) rfl
  refine congrArg₂ (· * ·) ?_ (transpose_ix2_apply _ _ k (0 : Fin 1))
  exact congrArg₂ (· + ·) rfl (broadcastTo_1b_ab_apply β _ y k)

/-- The three small payloads are casts of a row to its own shape. -/
theorem pay3_eq (v : Vec Ideal S1x128 .f32) : k0_pay3 v = v := shapeCast_self _ _
theorem pay4_eq (v : Vec Ideal S1x128 .f32) : k0_pay4 v = v := shapeCast_self _ _
theorem pay5_eq (v : Vec Ideal S1x128 .f32) : k0_pay5 v = v := shapeCast_self _ _

/-- The fourth is such a cast broadcast down the block's rows. -/
theorem pay7_apply (v : Vec Ideal S1x128 .f32) (y : Fin 2560) (k : Fin 128) : k0_pay7 v (ix2 y k) = v (ix2 (0 : Fin 1) k) := by
  unfold k0_pay7
  simp only [shapeCast_self]
  exact broadcastTo_1b_ab_apply v _ y k

/-! ## The block -/

/-- Row `y` of what the body stores: the score of row `y` of the feature block, under the parameters read off the
    1 × n rows. -/
theorem block_apply (y : Fin 2560) :
    k0_pay1 (k0_pay5 be2) (k0_pay6 (k0_pay2 xb g0 be0 m0 s0 w0 b0) (k0_pay3 g1) (k0_pay4 be1) m1 s1 w1 b1 m2 s2) (k0_pay7 g2) w2 b2
        (ix2 y (0 : Fin 1))
      = score P (fun k => xb (ix2 y k)) := by
  rw [pay3_eq, pay4_eq, pay5_eq, out_apply]
  simp only [scaled1_apply, hidden0_apply xb w0 b0 g0 be0 m0 s0 w1 b1 g1 be1 m1 s1 w2 b2 g2 be2 m2 s2, pay7_apply]
  rfl

end Cert.EdgeScore.Body

end
-- ==== Proof.KernelScores.lean ====
/-
  From blocks to the array: the kernel's result, whole.

  The grid has 125 points; point t stages rows 2560·t … 2560·t + 2559 of the feature array and writes back the same
  rows of the 320000 × 1 result; every other operand is staged whole at every point (its index map is constantly zero).
  The statistics and biases reach the region as 1 × n arrays the host reshaped from the length-n arguments, so their
  one row is the argument. Hence what point t writes back is block t of the specification's `scores` of the feature
  array, the blocks cover the result, and the result IS `scores`.
-/
import proofs.«167067_j74131135529469_1_alg».proof.Proof.Gen.KernelIdeal.Value
import proofs.«167067_j74131135529469_1_alg».proof.Proof.BodyScore
import Idealize.ShloMosaic.Lib.StableHlo.Run

set_option maxRecDepth 16384

noncomputable section

namespace Cert.EdgeScore.Kernel

open Cert.KernelIdeal Cert.KernelIdeal.Gen Idealize.ShloMosaic Idealize.ShloMosaic.TcCoe Idealize.ShloMosaic.ValueIdx
open Idealize.ShloMosaic.StableHlo Idealize.SL.Sem Cert.EdgeScore
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## The index maps, decided over the 125 points -/

/-- The feature window and the result window move together: block row `t`, block column 0. -/
theorem moving_index : ∀ t : Fin cfg0.N, win0_0.index t (0 : Fin 2) = t.val ∧ win0_0.index t (1 : Fin 2) = 0
    ∧ win0_19.index t (0 : Fin 2) = t.val ∧ win0_19.index t (1 : Fin 2) = 0 :=
  (by decide +kernel : ∀ t : Fin grid0.N, _)

theorem fixed_index1 : ∀ t : Fin cfg0.N, win0_1.index t (0 : Fin 2) = 0 ∧ win0_1.index t (1 : Fin 2) = 0 :=
  (by decide +kernel : ∀ t : Fin grid0.N, _)
theorem fixed_index2 : ∀ t : Fin cfg0.N, win0_2.index t (0 : Fin 2) = 0 ∧ win0_2.index t (1 : Fin 2) = 0 :=
  (by decide +kernel : ∀ t : Fin grid0.N, _)
theorem fixed_index3 : ∀ t : Fin cfg0.N, win0_3.index t (0 : Fin 2) = 0 ∧ win0_3.index t (1 : Fin 2) = 0 :=
  (by decide +kernel : ∀ t : Fin grid0.N, _)
theorem fixed_index4 : ∀ t : Fin cfg0.N, win0_4.index t (0 : Fin 2) = 0 ∧ win0_4.index t (1 : Fin 2) = 0 :=
  (by decide +kernel : ∀ t : Fin grid0.N, _)
theorem fixed_index5 : ∀ t : Fin cfg0.N, win0_5.index t (0 : Fin 2) = 0 ∧ win0_5.index t (1 : Fin 2) = 0 :=
  (by decide +kernel : ∀ t : Fin grid0.N, _)
theorem fixed_index6 : ∀ t : Fin cfg0.N, win0_6.index t (0 : Fin 2) = 0 ∧ win0_6.index t (1 : Fin 2) = 0 :=
  (by decide +kernel : ∀ t : Fin grid0.N, _)
theorem fixed_index7 : ∀ t : Fin cfg0.N, win0_7.index t (0 : Fin 2) = 0 ∧ win0_7.index t (1 : Fin 2) = 0 :=
  (by decide +kernel : ∀ t : Fin grid0.N, _)
theorem fixed_index8 : ∀ t : Fin cfg0.N, win0_8.index t (0 : Fin 2) = 0 ∧ win0_8.index t (1 : Fin 2) = 0 :=
  (by decide +kernel : ∀ t : Fin grid0.N, _)
theorem fixed_index9 : ∀ t : Fin cfg0.N, win0_9.index t (0 : Fin 2) = 0 ∧ win0_9.index t (1 : Fin 2) = 0 :=
  (by decide +kernel : ∀ t : Fin grid0.N, _)
theorem fixed_index10 : ∀ t : Fin cfg0.N, win0_10.index t (0 : Fin 2) = 0 ∧ win0_10.index t (1 : Fin 2) = 0 :=
  (by decide +kernel : ∀ t : Fin grid0.N, _)
theorem fixed_index11 : ∀ t : Fin cfg0.N, win0_11.index t (0 : Fin 2) = 0 ∧ win0_11.index t (1 : Fin 2) = 0 :=
  (by decide +kernel : ∀ t : Fin grid0.N, _)
theorem fixed_index12 : ∀ t : Fin cfg0.N, win0_12.index t (0 : Fin 2) = 0 ∧ win0_12.index t (1 : Fin 2) = 0 :=
  (by decide +kernel : ∀ t : Fin grid0.N, _)
theorem fixed_index13 : ∀ t : Fin cfg0.N, win0_13.index t (0 : Fin 2) = 0 ∧ win0_13.index t (1 : Fin 2) = 0 :=
  (by decide +kernel : ∀ t : Fin grid0.N, _)
theorem fixed_index14 : ∀ t : Fin cfg0.N, win0_14.index t (0 : Fin 2) = 0 ∧ win0_14.index t (1 : Fin 2) = 0 :=
  (by decide +kernel : ∀ t : Fin grid0.N, _)
theorem fixed_index15 : ∀ t : Fin cfg0.N, win0_15.index t (0 : Fin 2) = 0 ∧ win0_15.index t (1 : Fin 2) = 0 :=
  (by decide +kernel : ∀ t : Fin grid0.N, _)
theorem fixed_index16 : ∀ t : Fin cfg0.N, win0_16.index t (0 : Fin 2) = 0 ∧ win0_16.index t (1 : Fin 2) = 0 :=
  (by decide +kernel : ∀ t : Fin grid0.N, _)
theorem fixed_index17 : ∀ t : Fin cfg0.N, win0_17.index t (0 : Fin 2) = 0 ∧ win0_17.index t (1 : Fin 2) = 0 :=
  (by decide +kernel : ∀ t : Fin grid0.N, _)
theorem fixed_index18 : ∀ t : Fin cfg0.N, win0_18.index t (0 : Fin 2) = 0 ∧ win0_18.index t (1 : Fin 2) = 0 :=
  (by decide +kernel : ∀ t : Fin grid0.N, _)

/-! ## A whole-staged operand's block at any point is its array -/

theorem block1_apply (c : Dev nD) (t : Fin cfg0.N) (y : S128x256.Idx) : iblk m c 1 t y = V m c main_arg3 y := by
  show V m c main_arg3 (((cfg0.win 1).blk t).view.emb y) = V m c main_arg3 y
  refine congrArg _ (funext fun a => Fin.ext ?_)
  obtain ⟨e0, e1⟩ := fixed_index1 t
  match a with
  | ⟨0, _⟩ => show win0_1.index t (0 : Fin 2) * 128 + 1 * (y 0).val = (y 0).val; omega
  | ⟨1, _⟩ => show win0_1.index t (1 : Fin 2) * 256 + 1 * (y 1).val = (y 1).val; omega
theorem block2_apply (c : Dev nD) (t : Fin cfg0.N) (y : S1x128.Idx) : iblk m c 2 t y = V m c main_v15 y := by
  show V m c main_v15 (((cfg0.win 2).blk t).view.emb y) = V m c main_v15 y
  refine congrArg _ (funext fun a => Fin.ext ?_)
  obtain ⟨e0, e1⟩ := fixed_index2 t
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem block3_apply (c : Dev nD) (t : Fin cfg0.N) (y : S1x256.Idx) : iblk m c 3 t y = V m c main_v16 y := by
  show V m c main_v16 (((cfg0.win 3).blk t).view.emb y) = V m c main_v16 y
  refine congrArg _ (funext fun a => Fin.ext ?_)
  obtain ⟨e0, e1⟩ := fixed_index3 t
  match a with
  | ⟨0, _⟩ => show win0_3.index t (0 : Fin 2) * 1 + 1 * (y 0).val = (y 0).val; omega
  | ⟨1, _⟩ => show win0_3.index t (1 : Fin 2) * 256 + 1 * (y 1).val = (y 1).val; omega
theorem block4_apply (c : Dev nD) (t : Fin cfg0.N) (y : S1x256.Idx) : iblk m c 4 t y = V m c main_v17 y := by
  show V m c main_v17 (((cfg0.win 4).blk t).view.emb y) = V m c main_v17 y
  refine congrArg _ (funext fun a => Fin.ext ?_)
  obtain ⟨e0, e1⟩ := fixed_index4 t
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem block5_apply (c : Dev nD) (t : Fin cfg0.N) (y : S1x256.Idx) : iblk m c 5 t y = V m c main_v18 y := by
  show V m c main_v18 (((cfg0.win 5).blk t).view.emb y) = V m c main_v18 y
  refine congrArg _ (funext fun a => Fin.ext ?_)
  obtain ⟨e0, e1⟩ := fixed_index5 t
  match a with
  | ⟨0, _⟩ => show win0_5.index t (0 : Fin 2) * 1 + 1 * (y 0).val = (y 0).val; omega
  | ⟨1, _⟩ => show win0_5.index t (1 : Fin 2) * 256 + 1 * (y 1).val = (y 1).val; omega
theorem block6_apply (c : Dev nD) (t : Fin cfg0.N) (y : S1x256.Idx) : iblk m c 6 t y = V m c main_v19 y := by
  show V m c main_v19 (((cfg0.win 6).blk t).view.emb y) = V m c main_v19 y
  refine congrArg _ (funext fun a => Fin.ext ?_)
  obtain ⟨e0, e1⟩ := fixed_index6 t
  match a with
  | ⟨0, _⟩ => show win0_6.index t (0 : Fin 2) * 1 + 1 * (y 0).val = (y 0).val; omega
  | ⟨1, _⟩ => show win0_6.index t (1 : Fin 2) * 256 + 1 * (y 1).val = (y 1).val; omega
theorem block7_apply (c : Dev nD) (t : Fin cfg0.N) (y : S128x128.Idx) : iblk m c 7 t y = V m c main_arg5 y := by
  show V m c main_arg5 (((cfg0.win 7).blk t).view.emb y) = V m c main_arg5 y
  refine congrArg _ (funext fun a => Fin.ext ?_)
  obtain ⟨e0, e1⟩ := fixed_index7 t
  match a with
  | ⟨0, _⟩ => show win0_7.index t (0 : Fin 2) * 128 + 1 * (y 0).val = (y 0).val; omega
  | ⟨1, _⟩ => show win0_7.index t (1 : Fin 2) * 128 + 1 * (y 1).val = (y 1).val; omega
theorem block8_apply (c : Dev nD) (t : Fin cfg0.N) (y : S1x128.Idx) : iblk m c 8 t y = V m c main_v20 y := by
  show V m c main_v20 (((cfg0.win 8).blk t).view.emb y) = V m c main_v20 y
  refine congrArg _ (funext fun a => Fin.ext ?_)
  obtain ⟨e0, e1⟩ := fixed_index8 t
  match a with
  | ⟨0, _⟩ => show win0_8.index t (0 : Fin 2) * 1 + 1 * (y 0).val = (y 0).val; omega
  | ⟨1, _⟩ => show win0_8.index t (1 : Fin 2) * 128 + 1 * (y 1).val = (y 1).val; omega
theorem block9_apply (c : Dev nD) (t : Fin cfg0.N) (y : S1x128.Idx) : iblk m c 9 t y = V m c main_v21 y := by
  show V m c main_v21 (((cfg0.win 9).blk t).view.emb y) = V m c main_v21 y
  refine congrArg _ (funext fun a => Fin.ext ?_)
  obtain ⟨e0, e1⟩ := fixed_index9 t
  match a with
  | ⟨0, _⟩ => show win0_9.index t (0 : Fin 2) * 1 + 1 * (y 0).val = (y 0).val; omega
  | ⟨1, _⟩ => show win0_9.index t (1 : Fin 2) * 128 + 1 * (y 1).val = (y 1).val; omega
theorem block10_apply (c : Dev nD) (t : Fin cfg0.N) (y : S1x128.Idx) : iblk m c 10 t y = V m c main_v22 y := by
  show V m c main_v22 (((cfg0.win 10).blk t).view.emb y) = V m c main_v22 y
  refine congrArg _ (funext fun a => Fin.ext ?_)
  obtain ⟨e0, e1⟩ := fixed_index10 t
  match a with
  | ⟨0, _⟩ => show win0_10.index t (0 : Fin 2) * 1 + 1 * (y 0).val = (y 0).val; omega
  | ⟨1, _⟩ => show win0_10.index t (1 : Fin 2) * 128 + 1 * (y 1).val = (y 1).val; omega
theorem block11_apply (c : Dev nD) (t : Fin cfg0.N) (y : S1x128.Idx) : iblk m c 11 t y = V m c main_v23 y := by
  show V m c main_v23 (((cfg0.win 11).blk t).view.emb y) = V m c main_v23 y
  refine congrArg _ (funext fun a => Fin.ext ?_)
  obtain ⟨e0, e1⟩ := fixed_index11 t
  match a with
  | ⟨0, _⟩ => show win0_11.index t (0 : Fin 2) * 1 + 1 * (y 0).val = (y 0).val; omega
  | ⟨1, _⟩ => show win0_11.index t (1 : Fin 2) * 128 + 1 * (y 1).val = (y 1).val; omega
theorem block12_apply (c : Dev nD) (t : Fin cfg0.N) (y : S1x128.Idx) : iblk m c 12 t y = V m c main_v24 y := by
  show V m c main_v24 (((cfg0.win 12).blk t).view.emb y) = V m c main_v24 y
  refine congrArg _ (funext fun a => Fin.ext ?_)
  obtain ⟨e0, e1⟩ := fixed_index12 t
  match a with
  | ⟨0, _⟩ => show win0_12.index t (0 : Fin 2) * 1 + 1 * (y 0).val = (y 0).val; omega
  | ⟨1, _⟩ => show win0_12.index t (1 : Fin 2) * 128 + 1 * (y 1).val = (y 1).val; omega
theorem block13_apply (c : Dev nD) (t : Fin cfg0.N) (y : S1x128.Idx) : iblk m c 13 t y = V m c main_arg7 y := by
  show V m c main_arg7 (((cfg0.win 13).blk t).view.emb y) = V m c main_arg7 y
  refine congrArg _ (funext fun a => Fin.ext ?_)
  obtain ⟨e0, e1⟩ := fixed_index13 t
  match a with
  | ⟨0, _⟩ => show win0_13.index t (0 : Fin 2) * 1 + 1 * (y 0).val = (y 0).val; omega
  | ⟨1, _⟩ => show win0_13.index t (1 : Fin 2) * 128 + 1 * (y 1).val = (y 1).val; omega
theorem block14_apply (c : Dev nD) (t : Fin cfg0.N) (y : S1x1.Idx) : iblk m c 14 t y = V m c main_v25 y := by
  show V m c main_v25 (((cfg0.win 14).blk t).view.emb y) = V m c main_v25 y
  refine congrArg _ (funext fun a => Fin.ext ?_)
  obtain ⟨e0, e1⟩ := fixed_index14 t
  match a with
  | ⟨0, _⟩ => show win0_14.index t (0 : Fin 2) * 1 + 1 * (y 0).val = (y 0).val; omega
  | ⟨1, _⟩ => show win0_14.index t (1 : Fin 2) * 1 + 1 * (y 1).val = (y 1).val; omega
theorem block15_apply (c : Dev nD) (t : Fin cfg0.N) (y : S1x128.Idx) : iblk m c 15 t y = V m c main_v26 y := by
  show V m c main_v26 (((cfg0.win 15).blk t).view.emb y) = V m c main_v26 y
  refine congrArg _ (funext fun a => Fin.ext ?_)
  obtain ⟨e0, e1⟩ := fixed_index15 t
  match a with
  | ⟨0, _⟩ => show win0_15.index t (0 : Fin 2) * 1 + 1 * (y 0).val = (y 0).val; omega
  | ⟨1, _⟩ => show win0_15.index t (1 : Fin 2) * 128 + 1 * (y 1).val = (y 1).val; omega
theorem block16_apply (c : Dev nD) (t : Fin cfg0.N) (y : S1x128.Idx) : iblk m c 16 t y = V m c main_v27 y := by
  show V m c main_v27 (((cfg0.win 16).blk t).view.emb y) = V m c main_v27 y
  refine congrArg _ (funext fun a => Fin.ext ?_)
  obtain ⟨e0, e1⟩ := fixed_index16 t
  match a with
  | ⟨0, _⟩ => show win0_16.index t (0 : Fin 2) * 1 + 1 * (y 0).val = (y 0).val; omega
  | ⟨1, _⟩ => show win0_16.index t (1 : Fin 2) * 128 + 1 * (y 1).val = (y 1).val; omega
theorem block17_apply (c : Dev nD) (t : Fin cfg0.N) (y : S1x128.Idx) : iblk m c 17 t y = V m c main_v28 y := by
  show V m c main_v28 (((cfg0.win 17).blk t).view.emb y) = V m c main_v28 y
  refine congrArg _ (funext fun a => Fin.ext ?_)
  obtain ⟨e0, e1⟩ := fixed_index17 t
  match a with
  | ⟨0, _⟩ => show win0_17.index t (0 : Fin 2) * 1 + 1 * (y 0).val = (y 0).val; omega
  | ⟨1, _⟩ => show win0_17.index t (1 : Fin 2) * 128 + 1 * (y 1).val = (y 1).val; omega
theorem block18_apply (c : Dev nD) (t : Fin cfg0.N) (y : S1x128.Idx) : iblk m c 18 t y = V m c main_v29 y := by
  show V m c main_v29 (((cfg0.win 18).blk t).view.emb y) = V m c main_v29 y
  refine congrArg _ (funext fun a => Fin.ext ?_)
  obtain ⟨e0, e1⟩ := fixed_index18 t
  match a with
  | ⟨0, _⟩ => show win0_18.index t (0 : Fin 2) * 1 + 1 * (y 0).val = (y 0).val; omega
  | ⟨1, _⟩ => show win0_18.index t (1 : Fin 2) * 128 + 1 * (y 1).val = (y 1).val; omega

/-! ## The arrays the host reshaped: a length-n argument as a 1 × n array -/

theorem main_v15_eq (c : Dev nD) : (V m c main_v15 : S1x128.Idx → EReal) = shapeCast S1x128 (m ((c : Thread nD τ).loc main_arg4)) shapeCasts_S128_S1x128 := by
  dsimp only [V, hostOps0]; after_results; rfl
theorem main_v16_eq (c : Dev nD) : (V m c main_v16 : S1x256.Idx → EReal) = shapeCast S1x256 (m ((c : Thread nD τ).loc main_arg9)) shapeCasts_S256_S1x256 := by
  dsimp only [V, hostOps0]; after_results; rfl
theorem main_v17_eq (c : Dev nD) : (V m c main_v17 : S1x256.Idx → EReal) = shapeCast S1x256 (m ((c : Thread nD τ).loc main_arg10)) shapeCasts_S256_S1x256 := by
  dsimp only [V, hostOps0]; after_results; rfl
theorem main_v18_eq (c : Dev nD) : (V m c main_v18 : S1x256.Idx → EReal) = shapeCast S1x256 (m ((c : Thread nD τ).loc main_arg15)) shapeCasts_S256_S1x256 := by
  dsimp only [V, hostOps0]; after_results; rfl
theorem main_v19_eq (c : Dev nD) : (V m c main_v19 : S1x256.Idx → EReal) = shapeCast S1x256 (m ((c : Thread nD τ).loc main_arg16)) shapeCasts_S256_S1x256 := by
  dsimp only [V, hostOps0]; after_results; rfl
theorem main_v20_eq (c : Dev nD) : (V m c main_v20 : S1x128.Idx → EReal) = shapeCast S1x128 (m ((c : Thread nD τ).loc main_arg6)) shapeCasts_S128_S1x128 := by
  dsimp only [V, hostOps0]; after_results; rfl
theorem main_v21_eq (c : Dev nD) : (V m c main_v21 : S1x128.Idx → EReal) = shapeCast S1x128 (m ((c : Thread nD τ).loc main_arg11)) shapeCasts_S128_S1x128 := by
  dsimp only [V, hostOps0]; after_results; rfl
theorem main_v22_eq (c : Dev nD) : (V m c main_v22 : S1x128.Idx → EReal) = shapeCast S1x128 (m ((c : Thread nD τ).loc main_arg12)) shapeCasts_S128_S1x128 := by
  dsimp only [V, hostOps0]; after_results; rfl
theorem main_v23_eq (c : Dev nD) : (V m c main_v23 : S1x128.Idx → EReal) = shapeCast S1x128 (m ((c : Thread nD τ).loc main_arg17)) shapeCasts_S128_S1x128 := by
  dsimp only [V, hostOps0]; after_results; rfl
theorem main_v24_eq (c : Dev nD) : (V m c main_v24 : S1x128.Idx → EReal) = shapeCast S1x128 (m ((c : Thread nD τ).loc main_arg18)) shapeCasts_S128_S1x128 := by
  dsimp only [V, hostOps0]; after_results; rfl
theorem main_v25_eq (c : Dev nD) : (V m c main_v25 : S1x1.Idx → EReal) = shapeCast S1x1 (m ((c : Thread nD τ).loc main_arg8)) shapeCasts_S1_S1x1 := by
  dsimp only [V, hostOps0]; after_results; rfl
theorem main_v26_eq (c : Dev nD) : (V m c main_v26 : S1x128.Idx → EReal) = shapeCast S1x128 (m ((c : Thread nD τ).loc main_arg13)) shapeCasts_S128_S1x128 := by
  dsimp only [V, hostOps0]; after_results; rfl
theorem main_v27_eq (c : Dev nD) : (V m c main_v27 : S1x128.Idx → EReal) = shapeCast S1x128 (m ((c : Thread nD τ).loc main_arg14)) shapeCasts_S128_S1x128 := by
  dsimp only [V, hostOps0]; after_results; rfl
theorem main_v28_eq (c : Dev nD) : (V m c main_v28 : S1x128.Idx → EReal) = shapeCast S1x128 (m ((c : Thread nD τ).loc main_arg19)) shapeCasts_S128_S1x128 := by
  dsimp only [V, hostOps0]; after_results; rfl
theorem main_v29_eq (c : Dev nD) : (V m c main_v29 : S1x128.Idx → EReal) = shapeCast S1x128 (m ((c : Thread nD τ).loc main_arg20)) shapeCasts_S128_S1x128 := by
  dsimp only [V, hostOps0]; after_results; rfl

/-! ## So a staged row is the argument, entry by entry -/

theorem entry1_apply (c : Dev nD) (t : Fin cfg0.N) (j : Fin 128) (k : Fin 256) : iblk m c 1 t (ix2 j k) = m ((c : Thread nD τ).loc main_arg3) (ix2 j k) := by
  rw [block1_apply, V_main_arg3]
theorem row2_apply (c : Dev nD) (t : Fin cfg0.N) (k : Fin 128) : iblk m c 2 t (ix2 (0 : Fin 1) k) = m ((c : Thread nD τ).loc main_arg4) (ix1 k) := by
  rw [block2_apply, main_v15_eq]; exact shapeCast_a_1a_apply _ _ (0 : Fin 1) k
theorem row3_apply (c : Dev nD) (t : Fin cfg0.N) (k : Fin 256) : iblk m c 3 t (ix2 (0 : Fin 1) k) = m ((c : Thread nD τ).loc main_arg9) (ix1 k) := by
  rw [block3_apply, main_v16_eq]; exact shapeCast_a_1a_apply _ _ (0 : Fin 1) k
theorem row4_apply (c : Dev nD) (t : Fin cfg0.N) (k : Fin 256) : iblk m c 4 t (ix2 (0 : Fin 1) k) = m ((c : Thread nD τ).loc main_arg10) (ix1 k) := by
  rw [block4_apply, main_v17_eq]; exact shapeCast_a_1a_apply _ _ (0 : Fin 1) k
theorem row5_apply (c : Dev nD) (t : Fin cfg0.N) (k : Fin 256) : iblk m c 5 t (ix2 (0 : Fin 1) k) = m ((c : Thread nD τ).loc main_arg15) (ix1 k) := by
  rw [block5_apply, main_v18_eq]; exact shapeCast_a_1a_apply _ _ (0 : Fin 1) k
theorem row6_apply (c : Dev nD) (t : Fin cfg0.N) (k : Fin 256) : iblk m c 6 t (ix2 (0 : Fin 1) k) = m ((c : Thread nD τ).loc main_arg16) (ix1 k) := by
  rw [block6_apply, main_v19_eq]; exact shapeCast_a_1a_apply _ _ (0 : Fin 1) k
theorem entry7_apply (c : Dev nD) (t : Fin cfg0.N) (j : Fin 128) (k : Fin 128) : iblk m c 7 t (ix2 j k) = m ((c : Thread nD τ).loc main_arg5) (ix2 j k) := by
  rw [block7_apply, V_main_arg5]
theorem row8_apply (c : Dev nD) (t : Fin cfg0.N) (k : Fin 128) : iblk m c 8 t (ix2 (0 : Fin 1) k) = m ((c : Thread nD τ).loc main_arg6) (ix1 k) := by
  rw [block8_apply, main_v20_eq]; exact shapeCast_a_1a_apply _ _ (0 : Fin 1) k
theorem row9_apply (c : Dev nD) (t : Fin cfg0.N) (k : Fin 128) : iblk m c 9 t (ix2 (0 : Fin 1) k) = m ((c : Thread nD τ).loc main_arg11) (ix1 k) := by
  rw [block9_apply, main_v21_eq]; exact shapeCast_a_1a_apply _ _ (0 : Fin 1) k
theorem row10_apply (c : Dev nD) (t : Fin cfg0.N) (k : Fin 128) : iblk m c 10 t (ix2 (0 : Fin 1) k) = m ((c : Thread nD τ).loc main_arg12) (ix1 k) := by
  rw [block10_apply, main_v22_eq]; exact shapeCast_a_1a_apply _ _ (0 : Fin 1) k
theorem row11_apply (c : Dev nD) (t : Fin cfg0.N) (k : Fin 128) : iblk m c 11 t (ix2 (0 : Fin 1) k) = m ((c : Thread nD τ).loc main_arg17) (ix1 k) := by
  rw [block11_apply, main_v23_eq]; exact shapeCast_a_1a_apply _ _ (0 : Fin 1) k
theorem row12_apply (c : Dev nD) (t : Fin cfg0.N) (k : Fin 128) : iblk m c 12 t (ix2 (0 : Fin 1) k) = m ((c : Thread nD τ).loc main_arg18) (ix1 k) := by
  rw [block12_apply, main_v24_eq]; exact shapeCast_a_1a_apply _ _ (0 : Fin 1) k
theorem entry13_apply (c : Dev nD) (t : Fin cfg0.N) (j : Fin 1) (k : Fin 128) : iblk m c 13 t (ix2 j k) = m ((c : Thread nD τ).loc main_arg7) (ix2 j k) := by
  rw [block13_apply, V_main_arg7]
theorem entry14_apply (c : Dev nD) (t : Fin cfg0.N) : iblk m c 14 t (ix2 (0 : Fin 1) (0 : Fin 1)) = m ((c : Thread nD τ).loc main_arg8) (ix1 (0 : Fin 1)) := by
  rw [block14_apply, main_v25_eq]; exact shapeCast_a_1a_apply _ _ (0 : Fin 1) (0 : Fin 1)
theorem row15_apply (c : Dev nD) (t : Fin cfg0.N) (k : Fin 128) : iblk m c 15 t (ix2 (0 : Fin 1) k) = m ((c : Thread nD τ).loc main_arg13) (ix1 k) := by
  rw [block15_apply, main_v26_eq]; exact shapeCast_a_1a_apply _ _ (0 : Fin 1) k
theorem row16_apply (c : Dev nD) (t : Fin cfg0.N) (k : Fin 128) : iblk m c 16 t (ix2 (0 : Fin 1) k) = m ((c : Thread nD τ).loc main_arg14) (ix1 k) := by
  rw [block16_apply, main_v27_eq]; exact shapeCast_a_1a_apply _ _ (0 : Fin 1) k
theorem row17_apply (c : Dev nD) (t : Fin cfg0.N) (k : Fin 128) : iblk m c 17 t (ix2 (0 : Fin 1) k) = m ((c : Thread nD τ).loc main_arg19) (ix1 k) := by
  rw [block17_apply, main_v28_eq]; exact shapeCast_a_1a_apply _ _ (0 : Fin 1) k
theorem row18_apply (c : Dev nD) (t : Fin cfg0.N) (k : Fin 128) : iblk m c 18 t (ix2 (0 : Fin 1) k) = m ((c : Thread nD τ).loc main_arg20) (ix1 k) := by
  rw [block18_apply, main_v29_eq]; exact shapeCast_a_1a_apply _ _ (0 : Fin 1) k

/-! ## The parameters, read off the argument arrays -/

/-- The scorer's parameter bundle as the kernel's arguments give it. -/
def params (c : Dev nD) : Params where
  W0 j k := m ((c : Thread nD τ).loc main_arg3) (ix2 j k)
  b0 j := m ((c : Thread nD τ).loc main_arg4) (ix1 j)
  γ0 k := m ((c : Thread nD τ).loc main_arg9) (ix1 k)
  β0 k := m ((c : Thread nD τ).loc main_arg10) (ix1 k)
  μ0 k := m ((c : Thread nD τ).loc main_arg15) (ix1 k)
  σ0 k := m ((c : Thread nD τ).loc main_arg16) (ix1 k)
  W1 j k := m ((c : Thread nD τ).loc main_arg5) (ix2 j k)
  b1 j := m ((c : Thread nD τ).loc main_arg6) (ix1 j)
  γ1 k := m ((c : Thread nD τ).loc main_arg11) (ix1 k)
  β1 k := m ((c : Thread nD τ).loc main_arg12) (ix1 k)
  μ1 k := m ((c : Thread nD τ).loc main_arg17) (ix1 k)
  σ1 k := m ((c : Thread nD τ).loc main_arg18) (ix1 k)
  W2 k := m ((c : Thread nD τ).loc main_arg7) (ix2 (0 : Fin 1) k)
  b2 := m ((c : Thread nD τ).loc main_arg8) (ix1 (0 : Fin 1))
  γ2 k := m ((c : Thread nD τ).loc main_arg13) (ix1 k)
  β2 k := m ((c : Thread nD τ).loc main_arg14) (ix1 k)
  μ2 k := m ((c : Thread nD τ).loc main_arg19) (ix1 k)
  σ2 k := m ((c : Thread nD τ).loc main_arg20) (ix1 k)

/-- The bundle the body reads off its staged blocks, at any point, is that one. -/
theorem block_params (c : Dev nD) (t : Fin cfg0.N) :
    Body.params (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = params m c := by
  unfold Body.params params
  simp only [entry1_apply, row2_apply, row3_apply, row4_apply, row5_apply, row6_apply, entry7_apply, row8_apply, row9_apply, row10_apply,
    row11_apply, row12_apply, entry13_apply, entry14_apply, row15_apply, row16_apply, row17_apply, row18_apply]

/-! ## What a point writes back -/

/-- Point `t` writes back block `t` of the scores of the feature array as the region finds it. -/
theorem flushed_eq (c : Dev nD) (t : Fin cfg0.N) :
    (dats m 0 c).flushed 19 t = ((cfg0.win 19).blk t).view.read (Elt Ideal) (scores (params m c) (V m c main_v14)) := by
  rw [Cert.KernelIdeal.Value.flushed19]
  unfold out0_19
  rw [View.canon_unit_zero offsets_zero]
  simp only [View.ld_unit_zero (S := S2560x256) offsets_zero, View.ld_unit_zero (S := S128x256) offsets_zero,
    View.ld_unit_zero (S := S1x128) offsets_zero, View.ld_unit_zero (S := S1x256) offsets_zero,
    View.ld_unit_zero (S := S128x128) offsets_zero, View.ld_unit_zero (S := S1x1) offsets_zero]
  funext y
  obtain ⟨r, u, rfl⟩ : ∃ (r : Fin 2560) (u : Fin 1), y = ix2 r u := ⟨y 0, y 1, eq_ix2 y⟩
  obtain rfl : u = 0 := Subsingleton.elim _ _
  show k0_pay1 (k0_pay5 (iblk m c 16 t)) (k0_pay6 (k0_pay2 (iblk m c 0 t) (iblk m c 3 t) (iblk m c 4 t) (iblk m c 5 t) (iblk m c 6 t) (iblk m c 1 t) (iblk m c 2 t))
        (k0_pay3 (iblk m c 9 t)) (k0_pay4 (iblk m c 10 t)) (iblk m c 11 t) (iblk m c 12 t) (iblk m c 7 t) (iblk m c 8 t) (iblk m c 17 t) (iblk m c 18 t))
        (k0_pay7 (iblk m c 15 t)) (iblk m c 13 t) (iblk m c 14 t) (ix2 r (0 : Fin 1))
      = score (params m c) (fun k => V m c main_v14 (ix2 ((((cfg0.win 19).blk t).view.emb (ix2 r (0 : Fin 1))) 0) k))
  refine (Body.block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r).trans ?_
  rw [block_params]
  refine congrArg (score (params m c)) (funext fun k => ?_)
  show V m c main_v14 (((cfg0.win 0).blk t).view.emb (ix2 r k)) = _
  refine congrArg _ (funext fun a => Fin.ext ?_)
  obtain ⟨e0, e1, e2, e3⟩ := moving_index t
  match a with
  | ⟨0, _⟩ => show win0_0.index t (0 : Fin 2) * 2560 + 1 * r.val = win0_19.index t (0 : Fin 2) * 2560 + 1 * r.val; omega
  | ⟨1, _⟩ => show win0_0.index t (1 : Fin 2) * 256 + 1 * k.val = k.val; omega

/-! ## The blocks cover the result -/

/-- An index of the result is in point `t`'s block iff each coordinate is in the block's range on its axis. -/
theorem mem_block (t : Fin cfg0.N) (i : S320000x1.Idx) :
    i ∈ ((cfg0.win 19).blk t).view.set ↔ ∀ a : Fin 2, win0_19.index t a * S2560x1.size a ≤ (i a).val ∧ (i a).val < win0_19.index t a * S2560x1.size a + S2560x1.size a := by
  show i ∈ ((View.whole main_v30).slice (win0_19.rect t)).set ↔ _
  rw [View.set_slice_whole, Rect.mem_set_unit]
  exact Iff.rfl

/-- Row `e` of the result is written back by point `e / 2560`. -/
theorem covered (i : S320000x1.Idx) : ∃ t : Fin cfg0.N, (cfg0.win 19).flush t = true ∧ i ∈ ((cfg0.win 19).blk t).view.set := by
  have hi0 : (i 0).val < 320000 := (i 0).isLt
  have hi1 : (i 1).val < 1 := (i 1).isLt
  have hN : (i 0).val / 2560 < cfg0.N := by show _ < grid0.N; rw [N_0]; omega
  obtain ⟨-, -, e2, e3⟩ := moving_index ⟨(i 0).val / 2560, hN⟩
  refine ⟨⟨(i 0).val / 2560, hN⟩, flush0_19 _, ?_⟩
  rw [mem_block]
  intro a
  match a with
  | ⟨0, _⟩ =>
    show win0_19.index ⟨(i 0).val / 2560, hN⟩ (0 : Fin 2) * 2560 ≤ (i 0).val ∧ (i 0).val < win0_19.index ⟨(i 0).val / 2560, hN⟩ (0 : Fin 2) * 2560 + 2560
    have e2' : win0_19.index ⟨(i 0).val / 2560, hN⟩ (0 : Fin 2) = (i 0).val / 2560 := e2
    omega
  | ⟨1, _⟩ =>
    show win0_19.index ⟨(i 0).val / 2560, hN⟩ (1 : Fin 2) * 1 ≤ (i 1).val ∧ (i 1).val < win0_19.index ⟨(i 0).val / 2560, hN⟩ (1 : Fin 2) * 1 + 1
    omega

/-! ## The result, and the run -/

/-- After the run the result array is the scores of the feature array as the region finds it. -/
theorem result_eq (c : Dev nD) : (dats m 0 c).arrAt 19 cfg0.N = scores (params m c) (V m c main_v14) :=
  (dats m 0 c).arrAt_eq_of_cover 19 _ (fun t _ => flushed_eq m c t) covered

/-- The kernel's run: it terminates with the result at `scores` and the arguments unchanged. -/
theorem run : θ_run defs (onTc (τ := τ) (main (F := Ideal))) ⟨m, fun _ => 0, ρ⟩ fun r => ∀ c : Dev nD,
      r.2.mem ((c : Thread nD τ).loc main_v30) = scores (params m c) (V m c main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (result_eq m c), (h c).2⟩) (Cert.KernelIdeal.Value.run_blocks m ρ)

end Cert.EdgeScore.Kernel

end
-- ==== Proof.ReferenceScore.lean ====
/-
  The reference program computes the edge scorer of Spec.lean.

  Its run is a straight line of whole-array operations; read one entry at a time (the generated stage lemmas) every
  stage is one of the specification's three shapes. A statistic or a bias is a length-n vector laid along every row, so
  at entry (e, k) it is the vector's entry k; a weight enters transposed, so the inner product at (e, j) runs along the
  weight's row j; the rectifier's floor is a broadcast scalar. The gathered and concatenated feature array is left
  closed: only its entries (e, k) appear.
-/
import proofs.«167067_j74131135529469_1_alg».proof.Proof.Gen.ReferenceIdeal.Read
import proofs.«167067_j74131135529469_1_alg».proof.Proof.Spec

noncomputable section

namespace Cert.EdgeScore.Reference

open Cert.ReferenceIdeal Cert.ReferenceIdeal.Read Idealize.ShloMosaic Idealize.ShloMosaic.ValueIdx Cert.EdgeScore

variable (x0 : (⟨S10000x128, .f32⟩ : BufTy).Contents (Elt Ideal)) (x1 x2 : (⟨S320000, .i32⟩ : BufTy).Contents (Elt Ideal)) (x3 : (⟨S128x256, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S1x128, .f32⟩ : BufTy).Contents (Elt Ideal)) (x8 : (⟨S1, .f32⟩ : BufTy).Contents (Elt Ideal)) (x9 x10 : (⟨S256, .f32⟩ : BufTy).Contents (Elt Ideal))
  (x11 x12 x13 x14 : (⟨S128, .f32⟩ : BufTy).Contents (Elt Ideal)) (x15 x16 : (⟨S256, .f32⟩ : BufTy).Contents (Elt Ideal)) (x17 x18 x19 x20 : (⟨S128, .f32⟩ : BufTy).Contents (Elt Ideal))

/-- The parameter bundle the reference reads: the weights by (row, column), every vector by its one coordinate. -/
def params : Params where
  W0 j k := x3 (ix2 j k)
  b0 j := x4 (ix1 j)
  γ0 k := x9 (ix1 k)
  β0 k := x10 (ix1 k)
  μ0 k := x15 (ix1 k)
  σ0 k := x16 (ix1 k)
  W1 j k := x5 (ix2 j k)
  b1 j := x6 (ix1 j)
  γ1 k := x11 (ix1 k)
  β1 k := x12 (ix1 k)
  μ1 k := x17 (ix1 k)
  σ1 k := x18 (ix1 k)
  W2 k := x7 (ix2 (0 : Fin 1) k)
  b2 := x8 (ix1 (0 : Fin 1))
  γ2 k := x13 (ix1 k)
  β2 k := x14 (ix1 k)
  μ2 k := x19 (ix1 k)
  σ2 k := x20 (ix1 k)

local notation "P" => params x3 x4 x5 x6 x7 x8 x9 x10 x11 x12 x13 x14 x15 x16 x17 x18 x19 x20
local notation "X" => val_main_v14 (F := Ideal) x0 x1 x2

/-- The feature row of edge `e`. -/
local notation "rowOf" e => fun k : Fin 256 => X (ix2 e k)

/-! ## Stage 0: 256 features → 128 units -/

/-- Entry (e, k) after the first normalisation: the statistics are vectors over the 256 features laid along every row. -/
theorem norm0_apply (e : Fin 320000) (k : Fin 256) :
    val_main_v29 (F := Ideal) x0 x1 x2 x9 x10 x15 x16 (ix2 e k) = norm0 P (rowOf e) k := by
  have eμ : idx_main_v15 (idx_main_v16 (ix2 e k)) = ix1 k := funext fun a => match a with | ⟨0, _⟩ => rfl
  have eσ : idx_main_v21 (idx_main_v22 (ix2 e k)) = ix1 k := funext fun a => match a with | ⟨0, _⟩ => rfl
  have eγ : idx_main_v24 (idx_main_v25 (ix2 e k)) = ix1 k := funext fun a => match a with | ⟨0, _⟩ => rfl
  have eβ : idx_main_v27 (idx_main_v28 (ix2 e k)) = ix1 k := funext fun a => match a with | ⟨0, _⟩ => rfl
  rw [val_main_v29_apply, val_main_v26_apply, val_main_v23_apply, val_main_v17_apply, val_main_v16_apply, val_main_v15_apply, eμ,
    val_main_v22_apply, val_main_v21_apply, eσ, val_main_v20_apply, val_main_v19_apply, val_main_v18_apply, val_main_cst_apply,
    val_main_v25_apply, val_main_v24_apply, eγ, val_main_v28_apply, val_main_v27_apply, eβ]
  rfl

/-- Unit (e, j) of the first hidden layer: the product with the transposed weight sums along the weight's row `j`. -/
theorem hidden0_apply (e : Fin 320000) (j : Fin 128) :
    val_main_v35 (F := Ideal) x0 x1 x2 x3 x4 x9 x10 x15 x16 (ix2 e j) = hidden0 P (rowOf e) j := by
  have el : ∀ k : Fin 256, lidx_main_v31 (ix2 e j) k = ix2 e k := fun k => funext fun a => match a with | ⟨0, _⟩ => rfl | ⟨1, _⟩ => rfl
  have er : ∀ k : Fin 256, idx_main_v30 (ridx_main_v31 (ix2 e j) k) = ix2 j k := fun k => funext fun a => match a with | ⟨0, _⟩ => rfl | ⟨1, _⟩ => rfl
  have eb : idx_main_v32 (idx_main_v33 (ix2 e j)) = ix1 j := funext fun a => match a with | ⟨0, _⟩ => rfl
  rw [val_main_v35_apply, val_main_v34_apply, val_main_v31_apply, val_main_v33_apply, val_main_v32_apply, eb,
    val_main_call0_v0_apply, val_main_call0_cst_apply]
  simp only [el, val_main_v30_apply, er, norm0_apply x0 x1 x2 x3 x4 x5 x6 x7 x8 x9 x10 x11 x12 x13 x14 x15 x16 x17 x18 x19 x20]
  exact congrArg₂ max (congrArg₂ (· + ·) (Finset.sum_congr rfl fun k _ => rfl) rfl) rfl

/-! ## Stage 1: 128 units → 128 units -/

/-- Entry (e, k) after the second normalisation. -/
theorem norm1_apply (e : Fin 320000) (k : Fin 128) :
    val_main_v50 (F := Ideal) x0 x1 x2 x3 x4 x9 x10 x11 x12 x15 x16 x17 x18 (ix2 e k) = norm1 P (rowOf e) k := by
  have eμ : idx_main_v36 (idx_main_v37 (ix2 e k)) = ix1 k := funext fun a => match a with | ⟨0, _⟩ => rfl
  have eσ : idx_main_v42 (idx_main_v43 (ix2 e k)) = ix1 k := funext fun a => match a with | ⟨0, _⟩ => rfl
  have eγ : idx_main_v45 (idx_main_v46 (ix2 e k)) = ix1 k := funext fun a => match a with | ⟨0, _⟩ => rfl
  have eβ : idx_main_v48 (idx_main_v49 (ix2 e k)) = ix1 k := funext fun a => match a with | ⟨0, _⟩ => rfl
  rw [val_main_v50_apply, val_main_v47_apply, val_main_v44_apply, val_main_v38_apply, hidden0_apply x0 x1 x2 x3 x4 x5 x6 x7 x8 x9 x10 x11 x12 x13 x14 x15 x16 x17 x18 x19 x20, val_main_v37_apply, val_main_v36_apply, eμ,
    val_main_v43_apply, val_main_v42_apply, eσ, val_main_v41_apply, val_main_v40_apply, val_main_v39_apply, val_main_cst_3_apply,
    val_main_v46_apply, val_main_v45_apply, eγ, val_main_v49_apply, val_main_v48_apply, eβ]
  rfl

/-- Unit (e, j) of the second hidden layer. -/
theorem hidden1_apply (e : Fin 320000) (j : Fin 128) :
    val_main_v56 (F := Ideal) x0 x1 x2 x3 x4 x5 x6 x9 x10 x11 x12 x15 x16 x17 x18 (ix2 e j) = hidden1 P (rowOf e) j := by
  have el : ∀ k : Fin 128, lidx_main_v52 (ix2 e j) k = ix2 e k := fun k => funext fun a => match a with | ⟨0, _⟩ => rfl | ⟨1, _⟩ => rfl
  have er : ∀ k : Fin 128, idx_main_v51 (ridx_main_v52 (ix2 e j) k) = ix2 j k := fun k => funext fun a => match a with | ⟨0, _⟩ => rfl | ⟨1, _⟩ => rfl
  have eb : idx_main_v53 (idx_main_v54 (ix2 e j)) = ix1 j := funext fun a => match a with | ⟨0, _⟩ => rfl
  rw [val_main_v56_apply, val_main_v55_apply, val_main_v52_apply, val_main_v54_apply, val_main_v53_apply, eb,
    val_main_call1_v0_apply, val_main_call1_cst_apply]
  simp only [el, val_main_v51_apply, er, norm1_apply x0 x1 x2 x3 x4 x5 x6 x7 x8 x9 x10 x11 x12 x13 x14 x15 x16 x17 x18 x19 x20]
  exact congrArg₂ max (congrArg₂ (· + ·) (Finset.sum_congr rfl fun k _ => rfl) rfl) rfl

/-! ## Stage 2: 128 units → the score -/

/-- Entry (e, k) after the third normalisation. -/
theorem norm2_apply (e : Fin 320000) (k : Fin 128) :
    val_main_v71 (F := Ideal) x0 x1 x2 x3 x4 x5 x6 x9 x10 x11 x12 x13 x14 x15 x16 x17 x18 x19 x20 (ix2 e k) = norm2 P (rowOf e) k := by
  have eμ : idx_main_v57 (idx_main_v58 (ix2 e k)) = ix1 k := funext fun a => match a with | ⟨0, _⟩ => rfl
  have eσ : idx_main_v63 (idx_main_v64 (ix2 e k)) = ix1 k := funext fun a => match a with | ⟨0, _⟩ => rfl
  have eγ : idx_main_v66 (idx_main_v67 (ix2 e k)) = ix1 k := funext fun a => match a with | ⟨0, _⟩ => rfl
  have eβ : idx_main_v69 (idx_main_v70 (ix2 e k)) = ix1 k := funext fun a => match a with | ⟨0, _⟩ => rfl
  rw [val_main_v71_apply, val_main_v68_apply, val_main_v65_apply, val_main_v59_apply, hidden1_apply x0 x1 x2 x3 x4 x5 x6 x7 x8 x9 x10 x11 x12 x13 x14 x15 x16 x17 x18 x19 x20, val_main_v58_apply, val_main_v57_apply, eμ,
    val_main_v64_apply, val_main_v63_apply, eσ, val_main_v62_apply, val_main_v61_apply, val_main_v60_apply, val_main_cst_4_apply,
    val_main_v67_apply, val_main_v66_apply, eγ, val_main_v70_apply, val_main_v69_apply, eβ]
  rfl

/-- The score of edge `e`: the last layer has one unit, its weight a 1 × 128 row, its bias one number. -/
theorem score_apply (e : Fin 320000) :
    val_main_v76 (F := Ideal) x0 x1 x2 x3 x4 x5 x6 x7 x8 x9 x10 x11 x12 x13 x14 x15 x16 x17 x18 x19 x20 (ix2 e (0 : Fin 1)) = score P (rowOf e) := by
  have el : ∀ k : Fin 128, lidx_main_v73 (ix2 e (0 : Fin 1)) k = ix2 e k := fun k => funext fun a => match a with | ⟨0, _⟩ => rfl | ⟨1, _⟩ => rfl
  have er : ∀ k : Fin 128, idx_main_v72 (ridx_main_v73 (ix2 e (0 : Fin 1)) k) = ix2 (0 : Fin 1) k := fun k => funext fun a => match a with | ⟨0, _⟩ => rfl | ⟨1, _⟩ => rfl
  have eb : idx_main_v74 (idx_main_v75 (ix2 e (0 : Fin 1))) = ix1 (0 : Fin 1) := funext fun a => match a with | ⟨0, _⟩ => rfl
  rw [val_main_v76_apply, val_main_v73_apply, val_main_v75_apply, val_main_v74_apply, eb]
  simp only [el, val_main_v72_apply, er, norm2_apply x0 x1 x2 x3 x4 x5 x6 x7 x8 x9 x10 x11 x12 x13 x14 x15 x16 x17 x18 x19 x20]
  exact congrArg₂ (· + ·) (Finset.sum_congr rfl fun k _ => rfl) rfl

/-- The reference's result, whole: every entry of the 320000 × 1 array is its edge's score. -/
theorem result_eq :
    val_main_v76 (F := Ideal) x0 x1 x2 x3 x4 x5 x6 x7 x8 x9 x10 x11 x12 x13 x14 x15 x16 x17 x18 x19 x20 = scores P X := by
  funext i
  obtain ⟨e, u, rfl⟩ : ∃ (e : Fin 320000) (u : Fin 1), i = ix2 e u := ⟨i 0, i 1, eq_ix2 i⟩
  obtain rfl : u = 0 := Subsingleton.elim _ _
  exact score_apply x0 x1 x2 x3 x4 x5 x6 x7 x8 x9 x10 x11 x12 x13 x14 x15 x16 x17 x18 x19 x20 e

end Cert.EdgeScore.Reference

end
-- ==== Proof.Claims.lean ====
/-
  The claims.

  Both idealized programs begin with the same host operations — wrap negative endpoint indices, gather the two
  endpoint embeddings of every edge, lay them side by side —, so the feature array the kernel's region finds and the one
  the reference goes on to use are one term of the arguments; it is never opened. The kernel's result is the
  specification's `scores` of that array (the blocks), the reference's result is the same `scores` (its stages), and
  the two parameter bundles are read off arguments that agree. No law of arithmetic is needed to join the two sides:
  every sum is written in the same order on both, so nothing here asks the inputs to be finite.
-/
import proofs.«167067_j74131135529469_1_alg».proof.Defs
import proofs.«167067_j74131135529469_1_alg».proof.Proof.Gen.Kernel.Frame
import proofs.«167067_j74131135529469_1_alg».proof.Proof.Gen.ReferenceIdeal.Run
import proofs.«167067_j74131135529469_1_alg».proof.Proof.Gen.Pre_finite_inputs
import proofs.«167067_j74131135529469_1_alg».proof.Proof.KernelScores
import proofs.«167067_j74131135529469_1_alg».proof.Proof.ReferenceScore

set_option maxRecDepth 16384

noncomputable section

namespace Cert.Proof.EdgeScoreClaims

open Idealize.ShloMosaic Idealize.ShloMosaic.TcCoe Idealize.ShloMosaic.StableHlo Idealize.SL.Sem Cert.EdgeScore

/-- The feature array the kernel's region finds — the host's gather and concatenation of the arguments — is the
    reference's term for its own feature array, at the same arguments. -/
theorem features_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v14 : Cert.KernelIdeal.S320000x256.Idx → EReal)
      = Cert.ReferenceIdeal.Read.val_main_v14 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  dsimp only [Cert.KernelIdeal.Gen.V, Cert.KernelIdeal.Gen.hostOps0]
  after_results_simp
  unfold Cert.ReferenceIdeal.Read.val_main_v14
  refine congrArg₂ (fun a b => concatenate Cert.KernelIdeal.S320000x256 1
    [⟨Cert.KernelIdeal.S320000x128, a⟩, ⟨Cert.KernelIdeal.S320000x128, b⟩] _) ?_ ?_
  · after_results_simp
    rfl
  · after_results_simp
    rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both runs end with the result at `scores` of the shared feature array under the shared parameters. -/
theorem algebraic : Cert.algebraic_KernelIdeal_ReferenceIdeal := by
  intro m ρ m' ρ' _ hagree
  refine ⟨fun c => scores (Kernel.params m c) (Cert.KernelIdeal.Gen.V m c Cert.KernelIdeal.main_v14), Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  show _ = scores (Kernel.params m c) (Cert.KernelIdeal.Gen.V m c Cert.KernelIdeal.main_v14)
  rw [Cert.ReferenceIdeal.Read.val_main_v76_eq, Reference.result_eq, h0, h1, h2, h3, h4, h5, h6, h7, h8, h9, h10, h11, h12, h13, h14, h15, h16, h17, h18, h19, h20, features_eq]
  rfl

end Cert.Proof.EdgeScoreClaims

end
-- ==== Proof.lean ====
/- The proof of `Cert.Claim`: a Pallas kernel that scores the edges of a graph — for each edge, the two endpoint
   embeddings side by side go through three stages of evaluation-mode batch normalisation and a linear layer, with a
   rectifier between stages — against its plain jnp reference, equal entry by entry over the extended reals.

   Proof/Spec.lean states the scorer once, as a function of one feature row and a bundle of parameters.
   Proof/ReferenceScore.lean reads the reference's stages entry by entry: its result is `scores`.
   Proof/LibPlainMatmul.lean reads a plain matrix product at an entry as a sum over `Fin K`.
   Proof/BodyScore.lean reads the kernel body's arithmetic entry by entry: a block row's output is its feature row's score.
   Proof/KernelScores.lean goes from the 125 blocks to the whole result array: it is `scores` too.
   Proof/Claims.lean sets the two runs side by side; the three frames are the generated ones. -/
import proofs.«167067_j74131135529469_1_alg».proof.Defs
import proofs.«167067_j74131135529469_1_alg».proof.Proof.Claims
import proofs.«167067_j74131135529469_1_alg».proof.Proof.Gen.Kernel
import proofs.«167067_j74131135529469_1_alg».proof.Proof.Gen.Kernel.Skeleton
import proofs.«167067_j74131135529469_1_alg».proof.Proof.Gen.Kernel.Launch
import proofs.«167067_j74131135529469_1_alg».proof.Proof.Gen.Kernel.Points
import proofs.«167067_j74131135529469_1_alg».proof.Proof.Gen.Kernel.Frame
import proofs.«167067_j74131135529469_1_alg».proof.Proof.Gen.KernelIdeal
import proofs.«167067_j74131135529469_1_alg».proof.Proof.Gen.KernelIdeal.Skeleton
import proofs.«167067_j74131135529469_1_alg».proof.Proof.Gen.KernelIdeal.Launch
import proofs.«167067_j74131135529469_1_alg».proof.Proof.Gen.KernelIdeal.Points
import proofs.«167067_j74131135529469_1_alg».proof.Proof.Gen.KernelIdeal.Frame
import proofs.«167067_j74131135529469_1_alg».proof.Proof.Gen.ReferenceIdeal
import proofs.«167067_j74131135529469_1_alg».proof.Proof.Gen.Pre_finite_inputs
import proofs.«167067_j74131135529469_1_alg».proof.Proof.Gen.KernelIdeal.Value
import proofs.«167067_j74131135529469_1_alg».proof.Proof.Gen.ReferenceIdeal.Run
import proofs.«167067_j74131135529469_1_alg».proof.Proof.Gen.ReferenceIdeal.Read
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    EdgeScoreClaims.frame_k, EdgeScoreClaims.frame_ki, EdgeScoreClaims.frame_ri, EdgeScoreClaims.preserves, EdgeScoreClaims.algebraic⟩

end Cert.Proof

end
